-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 17
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S_, .f32⟩
  | .hbm, ⟨14, _⟩ => ⟨S1x8192, .f32⟩
  | .hbm, ⟨15, _⟩ => ⟨S1x8192, .f32⟩
  | .hbm, ⟨16, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Gram.lean ====
/-
  The Gaussian (radial-basis) Gram matrix of two families of 8192 vectors of length 256, as ONE function of the
  two argument arrays, index by index, on the extended reals — in the two arrangements the two programs compute:

    reference:  exp (-(1/256) · max ((|x_i|² + |s_j|²) - 2 · ⟨x_i, s_j⟩) 0)
    kernel:     exp (min ((1/128) · ⟨x_i, s_j⟩ - (1/256) · |x_i|² - (1/256) · |s_j|²) 0)

  where ⟨x_i, s_j⟩ is the sum over the 256 columns of the products of row i of x and row j of s, and |x_i|² is
  ⟨x_i, x_i⟩ (each squared norm written as the sum's initial value 0 plus the sum, as both programs compute it).
  The scales are the dyadic rationals the float words denote exactly: 1/128, 1/256, -(1/256), 2.
  On FINITE entries the two are equal: all three sums are real numbers, -(1/256) · max q 0 = min (-(1/256) · q) 0
  because the factor is negative, and -(1/256) · (a + b - 2c) = (1/128) c - (1/256) a - (1/256) b by distributivity —
  which is where finiteness is used: on the extended reals distributivity fails at the infinities.
-/
import Idealize.ShloMosaic.PureOps.Ideal
import Idealize.ShloMosaic.PureOps.Ideal.Laws
import Idealize.ShloMosaic.Lib.ValueIdx

noncomputable section

namespace Cert.Gram

open Idealize.ShloMosaic Idealize.ShloMosaic.ValueIdx

/-- The shape of each argument: 8192 rows of 256 entries. -/
abbrev SIn : Shape := ⟨2, ![8192, 256]⟩
/-- The shape of the result: one entry per pair of rows. -/
abbrev SOut : Shape := ⟨2, ![8192, 8192]⟩

/-! ## The four scales, as the reals their float words denote -/

theorem word_inv128 : Ideal.ofBits .f32 0x3C000000#32 = ((1 / 128 : ℝ) : EReal) := by
  simp [Ideal.ofBits, Ideal.ieee, -EReal.coe_mul]; norm_num
theorem word_inv256 : Ideal.ofBits .f32 0x3B800000#32 = ((1 / 256 : ℝ) : EReal) := by
  simp [Ideal.ofBits, Ideal.ieee, -EReal.coe_mul]; norm_num
theorem word_neg_inv256 : Ideal.ofBits .f32 0xBB800000#32 = ((-(1 / 256) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num

/-! ## The sums -/

/-- Row `i` of `x` against row `j` of `s`: the sum over the 256 columns of the products. -/
def cross (x s : SIn.Idx → EReal) (i j : Fin 8192) : EReal := ∑ k : Fin 256, x (ix2 i k) * s (ix2 j k)

/-- The squared norm of row `i` of `x`, as a sum started from the zero word. -/
def sqnorm (x : SIn.Idx → EReal) (i : Fin 8192) : EReal :=
  Ideal.ofBits .f32 0x00000000#32 + ∑ k : Fin 256, x (ix2 i k) * x (ix2 i k)

/-! ## The two arrangements -/

/-- The reference's arrangement: the clamped squared distance, scaled by -(1/256), exponentiated. -/
def referenceForm (x s : SIn.Idx → EReal) : SOut.Idx → EReal := fun i =>
  Ideal.exp (Ideal.ofBits .f32 0xBB800000#32 *
    max ((sqnorm x (i 0) + sqnorm s (i 1)) - Ideal.ofBits .f32 0x40000000#32 * cross x s (i 0) (i 1))
      (Ideal.ofBits .f32 0x00000000#32))

/-- The kernel's arrangement: the scale folded into the three terms, the clamp a minimum with zero. -/
def kernelForm (x s : SIn.Idx → EReal) : SOut.Idx → EReal := fun i =>
  Ideal.exp (min ((Ideal.ofBits .f32 0x3C000000#32 * cross x s (i 0) (i 1)
      - Ideal.ofBits .f32 0x3B800000#32 * sqnorm x (i 0))
      - Ideal.ofBits .f32 0x3B800000#32 * sqnorm s (i 1))
    (Ideal.ofBits .f32 0x00000000#32))

/-! ## The law, on finite entries -/

/-- A finite sum of real numbers, each read as an extended real, is the real sum read as an extended real. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

theorem coe_max (p q : ℝ) : max (p : EReal) (q : EReal) = ((max p q : ℝ) : EReal) :=
  (EReal.coe_strictMono.monotone.map_max).symm
theorem coe_min (p q : ℝ) : min (p : EReal) (q : EReal) = ((min p q : ℝ) : EReal) :=
  (EReal.coe_strictMono.monotone.map_min).symm

/-- The law on three real numbers `a = |x_i|²`, `b = |s_j|²`, `c = ⟨x_i, s_j⟩`. -/
theorem real_law (a b c : ℝ) :
    -(1 / 256) * max (a + b - 2 * c) 0 = min (1 / 128 * c - 1 / 256 * a - 1 / 256 * b) 0 := by
  rcases le_total (a + b - 2 * c) 0 with h | h
  · rw [max_eq_right h, min_eq_right (by linarith)]; ring
  · rw [max_eq_left h, min_eq_left (by linarith)]; ring

/-- The same on the extended reals, at real arguments, with the sums' zero initial values in place. -/
theorem ereal_law (a b c : ℝ) :
    Ideal.exp (((-(1 / 256) : ℝ) : EReal) * max (((0 : EReal) + (a : EReal)) + ((0 : EReal) + (b : EReal)) - ((2 : ℝ) : EReal) * (c : EReal)) 0)
      = Ideal.exp (min ((((1 / 128 : ℝ) : EReal) * (c : EReal) - ((1 / 256 : ℝ) : EReal) * ((0 : EReal) + (a : EReal)))
          - ((1 / 256 : ℝ) : EReal) * ((0 : EReal) + (b : EReal))) 0) := by
  rw [zero_add, zero_add, ← EReal.coe_zero, ← EReal.coe_add, ← EReal.coe_mul, ← EReal.coe_sub, coe_max, ← EReal.coe_mul,
    ← EReal.coe_mul, ← EReal.coe_mul, ← EReal.coe_mul, ← EReal.coe_sub, ← EReal.coe_sub, coe_min, Ideal.exp_coe, Ideal.exp_coe,
    real_law]

/-- ON FINITE ENTRIES THE TWO ARRANGEMENTS ARE ONE FUNCTION. -/
theorem referenceForm_eq_kernelForm (x s : SIn.Idx → EReal) (hx : ∀ i, ∃ r : ℝ, x i = (r : EReal))
    (hs : ∀ i, ∃ r : ℝ, s i = (r : EReal)) : referenceForm x s = kernelForm x s := by
  choose xr hxr using hx
  choose sr hsr using hs
  funext i
  have hc : cross x s (i 0) (i 1) = ((∑ k : Fin 256, xr (ix2 (i 0) k) * sr (ix2 (i 1) k) : ℝ) : EReal) := by
    unfold cross; rw [← coe_sum]; exact Finset.sum_congr rfl fun k _ => by rw [hxr, hsr, EReal.coe_mul]
  have ha : sqnorm x (i 0) = (0 : EReal) + ((∑ k : Fin 256, xr (ix2 (i 0) k) * xr (ix2 (i 0) k) : ℝ) : EReal) := by
    unfold sqnorm; rw [Ideal.ofBits_zero_f32, ← coe_sum]
    exact congrArg (0 + ·) (Finset.sum_congr rfl fun k _ => by rw [hxr, EReal.coe_mul])
  have hb : sqnorm s (i 1) = (0 : EReal) + ((∑ k : Fin 256, sr (ix2 (i 1) k) * sr (ix2 (i 1) k) : ℝ) : EReal) := by
    unfold sqnorm; rw [Ideal.ofBits_zero_f32, ← coe_sum]
    exact congrArg (0 + ·) (Finset.sum_congr rfl fun k _ => by rw [hsr, EReal.coe_mul])
  unfold referenceForm kernelForm
  rw [hc, ha, hb, word_inv128, word_inv256, word_neg_inv256, word_two, Ideal.ofBits_zero_f32]
  exact ereal_law _ _ _

end Cert.Gram

end
-- ==== Proof.Finite.lean ====
/-
  The precondition, read back: when the printed predicate "every entry of both arguments has absolute value below
  +∞" is all ones, every entry of both arguments is a real number (neither infinity). Each `jnp.all` is a reduction
  by `and` to one index, so each compared entry is 1; an extended real whose absolute value max x (-x) is below ⊤
  is neither ⊤ nor ⊥.
-/
import proofs.«137444_j65481071400087_2_alg».proof.Pre_finite_inputs
import proofs.«137444_j65481071400087_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- The word 0x7F800000 denotes +∞. -/
theorem word_top : Ideal.ofBits .f32 0x7F800000#32 = ⊤ := by simp [Ideal.ofBits, Ideal.ieee]

/-- An extended real whose absolute value compares below +∞ is a real number. -/
theorem real_of_abs_lt_top (x : EReal) (h : Ideal.cmp .olt (max x (-x)) (Ideal.ofBits .f32 0x7F800000#32) = 1#1) :
    ∃ r : ℝ, x = (r : EReal) := by
  rw [word_top] at h
  induction x using EReal.rec with
  | bot => simp [Ideal.cmp] at h
  | top => simp [Ideal.cmp] at h
  | coe r => exact ⟨r, rfl⟩

/-- UNDER THE PRECONDITION EVERY ENTRY OF BOTH ARGUMENTS IS REAL. -/
theorem entries_real (a0 a1 : FVec Ideal S8192x256 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.1 h0
  exact ⟨fun i => real_of_abs_lt_top _ (Host.reduce_andi_all _ _ _ _ _ h1 i),
    fun i => real_of_abs_lt_top _ (Host.reduce_andi_all _ _ _ _ _ h2 i)⟩

end Cert.Pre_finite_inputs.Finite

end
-- ==== Proof.RefStage.lean ====
/-
  The reference program's result, stage by stage, IS the reference arrangement of the Gram matrix
  (`Cert.Gram.referenceForm`), index by index, on every extended-real input: entry (i, j) reads the broadcast
  column of row sums of x·x at row i, the broadcast row of row sums of s·s at column j, and the contraction of
  row i of x with row j of s over the 256 columns — no algebra, only the reading of each stage at an index.
-/
import proofs.«137444_j65481071400087_2_alg».proof.Proof.Gen.ReferenceIdeal.Read
import proofs.«137444_j65481071400087_2_alg».proof.Proof.Gram

noncomputable section

namespace Cert.ReferenceIdeal.RefValue

open Cert.ReferenceIdeal Cert.ReferenceIdeal.Gen Cert.ReferenceIdeal.Read Idealize.ShloMosaic Idealize.ShloMosaic.ValueIdx

/-- Entry (i, j) of the result reads row i of the first argument for the squared norm, -/
theorem row_of_first (i : S8192x8192.Idx) (k : Fin 256) :
    idx_main_v1 (idx_main_v2 (idx_main_v7 i)) k = ix2 (i 0) k :=
  funext fun a => Fin.ext (by match a with | ⟨0, _⟩ => rfl | ⟨1, _⟩ => rfl)

/-- row j of the second argument for the other squared norm, -/
theorem row_of_second (i : S8192x8192.Idx) (k : Fin 256) :
    idx_main_v4 (idx_main_v5 (idx_main_v8 i)) k = ix2 (i 1) k :=
  funext fun a => Fin.ext (by match a with | ⟨0, _⟩ => rfl | ⟨1, _⟩ => rfl)

/-- and for the contraction row i of the first argument against row j of the second. -/
theorem contraction_left (i : S8192x8192.Idx) (k : Fin 256) : lidx_main_v6 i k = ix2 (i 0) k :=
  funext fun a => Fin.ext (by match a with | ⟨0, _⟩ => rfl | ⟨1, _⟩ => rfl)
theorem contraction_right (i : S8192x8192.Idx) (k : Fin 256) : ridx_main_v6 i k = ix2 (i 1) k :=
  funext fun a => Fin.ext (by match a with | ⟨0, _⟩ => rfl | ⟨1, _⟩ => rfl)

/-- THE REFERENCE'S LAST STAGE IS THE REFERENCE ARRANGEMENT of the two arguments. -/
theorem stage_eq (x0 x1 : (⟨S8192x256, .f32⟩ : BufTy).Contents (Elt Ideal)) :
    val_main_v17 (F := Ideal) x0 x1 = Cert.Gram.referenceForm x0 x1 := by
  funext i
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v6_apply, val_main_v9_apply, val_main_v7_apply, val_main_v2_apply,
    val_main_v1_apply, val_main_v8_apply, val_main_v5_apply, val_main_v4_apply, val_main_cst_apply, val_main_cst_0_apply]
  simp only [val_main_v0_apply, val_main_v3_apply, row_of_first, row_of_second, contraction_left, contraction_right,
    Ideal.hostUnary_exp_def, Ideal.mulf_def, Ideal.maximumf_def, Ideal.subf_def, Ideal.addf_def, Ideal.ofBits_def]
  rfl

end Cert.ReferenceIdeal.RefValue

end
-- ==== Proof.Body.lean ====
/-
  What the kernel's body computes for one 1024 × 1024 block, read at ONE entry (p, q) of the block, on the
  extended reals: from the block's 1024 rows of x (`v0`), its 1024 rows of s (`v1`), the column of the rows'
  scaled squared norms (`v2`, one entry per row p) and the row of the columns' scaled squared norms (`v4`, one
  entry per column q),

      exp (min ((1/128) · (Σ_k v0 (p, k) · v1 (q, k)) - v2 (p, 0) - v4 (0, q)) 0).

  The matrix product into a zero accumulator is the plain sum over the 256 contracted columns; narrowing the
  operands to bf16 changes nothing on the extended reals; the column is broadcast along the block's rows' entries
  and the row along its rows.
-/
import proofs.«137444_j65481071400087_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- A column of 1024 entries broadcast to 1024 × 1024, read at (p, q), is the column's entry p. -/
theorem column_broadcast_at (v : S1024x1.Idx → EReal) (h : S1024x1.Broadcasts S1024x1024) (p q : Fin 1024) :
    broadcastTo S1024x1024 v h (ix2 p q) = v (ix2 p (0 : Fin 1)) :=
  broadcastTo_apply v h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row of 1024 entries broadcast to 1024 × 1024, read at (p, q), is the row's entry q. -/
theorem row_broadcast_at (v : S1x1024.Idx → EReal) (h : S1x1024.Broadcasts S1024x1024) (p q : Fin 1024) :
    broadcastTo S1024x1024 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

local notation "D" => dot_S1024x256_S1024x256_S1024x1024_1_1_0_0_n_n

theorem lhs_row (i : S1024x1024.Idx) (c : (D).contr.Idx) : ((D).lhsIdx i c 0).val = (i 0).val := by
  unfold DotDims.lhsIdx
  rw [dif_neg (show ¬(0 : Fin S1024x256.rank) ∈ (D).lhsBatch by decide), dif_pos (show (0 : Fin S1024x256.rank) ∈ (D).lhsNonContracting by decide)]
  rfl
theorem lhs_col (i : S1024x1024.Idx) (c : (D).contr.Idx) : ((D).lhsIdx i c 1).val = (c ⟨0, by decide⟩).val :=
  (D).lhsIdx_val_of_single rfl i c
theorem rhs_row (i : S1024x1024.Idx) (c : (D).contr.Idx) : ((D).rhsIdx i c 0).val = (i 1).val := by
  unfold DotDims.rhsIdx
  rw [dif_neg (show ¬(0 : Fin S1024x256.rank) ∈ (D).rhsBatch by decide), dif_pos (show (0 : Fin S1024x256.rank) ∈ (D).rhsNonContracting by decide)]
  rfl
theorem rhs_col (i : S1024x1024.Idx) (c : (D).contr.Idx) : ((D).rhsIdx i c 1).val = (c ⟨0, by decide⟩).val :=
  (D).rhsIdx_val_of_single rfl i c

/-- The block's matrix product into a zero accumulator, read at (p, q): row p of the left operand against row q of the
    right one, summed over the 256 contracted columns. -/
theorem product_at {φ₁ φ₂ : FTy} (l : FVec Ideal S1024x256 φ₁) (r : FVec Ideal S1024x256 φ₂) (p q : Fin 1024) :
    FloatOps.matmul (D) none l r (constant S1024x1024 .f32 0x00000000#32) (ix2 p q) = ∑ k : Fin 256, l (ix2 p k) * r (ix2 q k) := by
  rw [Ideal.matmul_constant_zero_apply, ← Equiv.sum_comp (contrEquiv1 (D) 256 rfl rfl).symm]
  refine Finset.sum_congr rfl fun k _ => ?_
  have hk := contrEquiv1_symm_val (D) 256 rfl rfl k
  have el : (D).lhsIdx (ix2 p q) ((contrEquiv1 (D) 256 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 (D) 256 rfl rfl).symm k) = ix2 q k := funext fun a => Fin.ext (by
    match a with
    | ⟨0, _⟩ => exact rhs_row _ _
    | ⟨1, _⟩ => exact (rhs_col _ _).trans hk)
  rw [el, er]

/-- THE BODY'S STORED VALUE AT ENTRY (p, q) OF THE BLOCK. -/
theorem stored_at (v0 v1 : Vec Ideal S1024x256 .f32) (v2 : Vec Ideal S1024x1 .f32) (v4 : Vec Ideal S1x1024 .f32) (p q : Fin 1024) :
    k0_pay1 (F := Ideal) v0 v1 v2 v4 (ix2 p q)
      = Ideal.exp (min ((Ideal.ofBits .f32 0x3C000000#32 * (∑ k : Fin 256, v0 (ix2 p k) * v1 (ix2 q k))
          - v2 (ix2 p (0 : Fin 1))) - v4 (ix2 (0 : Fin 1) q)) (Ideal.ofBits .f32 0x00000000#32)) := by
  unfold k0_pay1
  show Ideal.exp (min ((Ideal.ofBits .f32 0x3C000000#32
        * FloatOps.matmul (F := Ideal) (D) none (truncf (F := Ideal) .bf16 v0 bitsLt_bf16_f32) (truncf (F := Ideal) .bf16 v1 bitsLt_bf16_f32) (constant (F := Ideal) S1024x1024 .f32 0x00000000#32) (ix2 p q)
      - broadcastTo S1024x1024 (shapeCast S1024x1 v2 shapeCasts_S1024x1_S1024x1) broadcasts_S1024x1_S1024x1024 (ix2 p q))
      - broadcastTo S1024x1024 (shapeCast S1x1024 v4 shapeCasts_S1x1024_S1x1024) broadcasts_S1x1024_S1024x1024 (ix2 p q))
      (Ideal.ofBits .f32 0x00000000#32)) = _
  rw [product_at, column_broadcast_at, row_broadcast_at, shapeCast_self, shapeCast_self]
  rfl

end Cert.KernelIdeal.Body

end
-- ==== Proof.Norms.lean ====
/-
  What the two small arrays the kernel's region reads beside its arguments hold when the region starts: the host
  operations before it leave, in the 8192 × 1 column, entry r at (1/256) · |x_r|² (the squared norm of row r of the
  first argument, as a sum from the zero word), and in the 1 × 8192 row, entry r at (1/256) · |s_r|² of the second.
-/
import proofs.«137444_j65481071400087_2_alg».proof.Proof.Gen.KernelIdeal.Frame
import proofs.«137444_j65481071400087_2_alg».proof.Proof.Gram
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Norms

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The row sums of the squares of an 8192 × 256 array (from the zero word), as the host operations compose them. -/
def rowSquareSums (x : FVec Ideal S8192x256 .f32) : FVec Ideal S8192 .f32 :=
  Host.reduceAdd (mulf x x) (constant (F := Ideal) S_ .f32 0x00000000#32) reducesTo_S8192x256_S8192_d1 h_S_

/-- Entry r of the row sums is the squared norm of row r. -/
theorem rowSquareSums_at (x : FVec Ideal S8192x256 .f32) (r : Fin 8192) :
    rowSquareSums x (ix1 r) = Cert.Gram.sqnorm x r := by
  unfold rowSquareSums
  simp only [Host.reduceAdd, Ideal.hostReduceAdd_def]
  rw [Ideal.hostReduceAdd_single reducesTo_S8192x256_S8192_d1 (by decide)]
  unfold Cert.Gram.sqnorm
  refine congrArg₂ (· + ·) rfl (Finset.sum_congr rfl fun k _ => ?_)
  show x _ * x _ = _
  have e : (by decide : S8192x256.Reduces [1] S8192).lift (ix1 r) k = ix2 r k :=
    funext fun a => Fin.ext (by match a with | ⟨0, _⟩ => rfl | ⟨1, _⟩ => rfl)
  rw [e]
  rfl

/-- The column array when the region starts, as the host operations' term of the first argument. -/
theorem column_term (c : Dev nD) : (V m c main_v4 : S8192x1.Idx → EReal)
    = mulf (broadcastInDim S8192x1 ![] bcast_S_S8192x1 (constant (F := Ideal) S_ .f32 0x3B800000#32))
        (broadcastInDim S8192x1 ![0] bcast_S8192_S8192x1_0 (rowSquareSums (m ((c : Thread nD τ).loc main_arg0)))) := by
  dsimp only [Gen.V, Gen.hostOps0]; after_results; rfl

/-- The row array when the region starts, as the host operations' term of the second argument. -/
theorem row_term (c : Dev nD) : (V m c main_v9 : S1x8192.Idx → EReal)
    = mulf (broadcastInDim S1x8192 ![] bcast_S_S1x8192 (constant (F := Ideal) S_ .f32 0x3B800000#32))
        (broadcastInDim S1x8192 ![1] bcast_S8192_S1x8192_1 (rowSquareSums (m ((c : Thread nD τ).loc main_arg1)))) := by
  dsimp only [Gen.V, Gen.hostOps0]; after_results; rfl

/-- THE COLUMN'S ENTRY r: (1/256) · |x_r|². -/
theorem column_at (c : Dev nD) (r : Fin 8192) : (V m c main_v4 : S8192x1.Idx → EReal) (ix2 r (0 : Fin 1))
    = Ideal.ofBits .f32 0x3B800000#32 * Cert.Gram.sqnorm (m ((c : Thread nD τ).loc main_arg0)) r := by
  rw [column_term]
  show broadcastInDim S8192x1 ![] bcast_S_S8192x1 (constant (F := Ideal) S_ .f32 0x3B800000#32) (ix2 r (0 : Fin 1))
      * broadcastInDim S8192x1 ![0] bcast_S8192_S8192x1_0 (rowSquareSums (m ((c : Thread nD τ).loc main_arg0))) (ix2 r (0 : Fin 1)) = _
  rw [broadcastInDim_apply _ bcast_S_S8192x1 _ (ix2 r (0 : Fin 1)) ix0 (fun a => a.elim0),
    broadcastInDim_apply _ bcast_S8192_S8192x1_0 _ (ix2 r (0 : Fin 1)) (ix1 r) (fun a => match a with
      | ⟨0, _⟩ => by show r.val = if (8192 : Nat) = 1 then 0 else r.val; rw [if_neg (by decide)]),
    rowSquareSums_at]
  rfl

/-- THE ROW'S ENTRY r: (1/256) · |s_r|². -/
theorem row_at (c : Dev nD) (r : Fin 8192) : (V m c main_v9 : S1x8192.Idx → EReal) (ix2 (0 : Fin 1) r)
    = Ideal.ofBits .f32 0x3B800000#32 * Cert.Gram.sqnorm (m ((c : Thread nD τ).loc main_arg1)) r := by
  rw [row_term]
  show broadcastInDim S1x8192 ![] bcast_S_S1x8192 (constant (F := Ideal) S_ .f32 0x3B800000#32) (ix2 (0 : Fin 1) r)
      * broadcastInDim S1x8192 ![1] bcast_S8192_S1x8192_1 (rowSquareSums (m ((c : Thread nD τ).loc main_arg1))) (ix2 (0 : Fin 1) r) = _
  rw [broadcastInDim_apply _ bcast_S_S1x8192 _ (ix2 (0 : Fin 1) r) ix0 (fun a => a.elim0),
    broadcastInDim_apply _ bcast_S8192_S1x8192_1 _ (ix2 (0 : Fin 1) r) (ix1 r) (fun a => match a with
      | ⟨0, _⟩ => by show r.val = if (8192 : Nat) = 1 then 0 else r.val; rw [if_neg (by decide)]),
    rowSquareSums_at]
  rfl

end Cert.KernelIdeal.Norms

end
-- ==== Proof.Whole.lean ====
/-
  From the blocks to the whole array. The result array is tiled by 8 × 8 blocks of 1024 × 1024 entries; the grid
  point that writes block (a, b) reads rows 1024a … 1024a + 1023 of x, rows 1024b … 1024b + 1023 of s, and the
  same rows of the column of x's scaled squared norms and entries of the row of s's. So what that point writes
  back at entry (p, q) of its block is the kernel arrangement of the Gram matrix at entry (1024a + p, 1024b + q)
  of the whole array; the 64 blocks cover the array, and the array after the run is that one function.
-/
import proofs.«137444_j65481071400087_2_alg».proof.Proof.Gen.KernelIdeal.Value
import proofs.«137444_j65481071400087_2_alg».proof.Proof.Gram
import proofs.«137444_j65481071400087_2_alg».proof.Proof.Body
import proofs.«137444_j65481071400087_2_alg».proof.Proof.Norms

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zeros : (![0, 0] : Fin 2 → Nat) = fun _ => 0 := funext fun a => by fin_cases a <;> rfl

/-- The block each window reads at a grid point, against the block (a, b) of the result the point writes: x's rows and
    the column follow a, s's rows and the row follow b, and the other block index of each is 0; a, b ≤ 7. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 blocks of the result is some grid point's. -/
theorem every_block : ∀ (a b : Fin 8), ∃ t : Fin cfg0.N, win0_4.index t = ![a.val, b.val] :=
  (by decide +kernel : ∀ (a b : Fin 8), ∃ t : Fin grid0.N, win0_4.index t = ![a.val, b.val])

/-! ## Each window's block at a point, read at an entry -/

/-- Row p of the block of x at point t is row R = 1024a + p of x. -/
theorem x_block_at (c : Dev nD) (t : Fin cfg0.N) (p : Fin 1024) (k : Fin 256) (R : Fin 8192)
    (hR : R.val = win0_4.index t (0 : Fin 2) * 1024 + p.val) :
    (iblk m c 0 t : Vec Ideal S1024x256 .f32) (ix2 p k) = (m ((c : Thread nD τ).loc main_arg0) : S8192x256.Idx → EReal) (ix2 R k) := by
  obtain ⟨e0, e1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = R.val; rw [e0, hR]; omega
  | ⟨1, _⟩ => show win0_0.index t (1 : Fin 2) * 256 + 1 * k.val = k.val; rw [e1]; omega

/-- Row q of the block of s at point t is row C = 1024b + q of s. -/
theorem s_block_at (c : Dev nD) (t : Fin cfg0.N) (q : Fin 1024) (k : Fin 256) (C : Fin 8192)
    (hC : C.val = win0_4.index t (1 : Fin 2) * 1024 + q.val) :
    (iblk m c 1 t : Vec Ideal S1024x256 .f32) (ix2 q k) = (m ((c : Thread nD τ).loc main_arg1) : S8192x256.Idx → EReal) (ix2 C k) := by
  obtain ⟨-, -, e0, e1, -⟩ := block_indices t
  show V m c main_arg1 (((cfg0.win 1).blk t).view.emb (ix2 q k)) = _
  rw [V_main_arg1]
  refine congrArg _ (funext fun a => Fin.ext ?_)
  match a with
  | ⟨0, _⟩ => show win0_1.index t (0 : Fin 2) * 1024 + 1 * q.val = C.val; rw [e0, hC]; omega
  | ⟨1, _⟩ => show win0_1.index t (1 : Fin 2) * 256 + 1 * k.val = k.val; rw [e1]; omega

/-- Entry p of the block of the column at point t is (1/256) · |x_R|², R = 1024a + p. -/
theorem column_block_at (c : Dev nD) (t : Fin cfg0.N) (p : Fin 1024) (R : Fin 8192)
    (hR : R.val = win0_4.index t (0 : Fin 2) * 1024 + p.val) :
    (iblk m c 2 t : Vec Ideal S1024x1 .f32) (ix2 p (0 : Fin 1))
      = Ideal.ofBits .f32 0x3B800000#32 * Cert.Gram.sqnorm (m ((c : Thread nD τ).loc main_arg0)) R := by
  obtain ⟨-, -, -, -, e0, e1, -⟩ := block_indices t
  refine Eq.trans ?_ (Cert.KernelIdeal.Norms.column_at m c R)
  show V m c main_v4 (((cfg0.win 2).blk t).view.emb (ix2 p (0 : Fin 1))) = V m c main_v4 (ix2 R (0 : Fin 1))
  refine congrArg _ (funext fun a => Fin.ext ?_)
  match a with
  | ⟨0, _⟩ => show win0_2.index t (0 : Fin 2) * 1024 + 1 * p.val = R.val; rw [e0, hR]; omega
  | ⟨1, _⟩ => show win0_2.index t (1 : Fin 2) * 1 + 1 * 0 = 0; rw [e1]

/-- Entry q of the block of the row at point t is (1/256) · |s_C|², C = 1024b + q. -/
theorem row_block_at (c : Dev nD) (t : Fin cfg0.N) (q : Fin 1024) (C : Fin 8192)
    (hC : C.val = win0_4.index t (1 : Fin 2) * 1024 + q.val) :
    (iblk m c 3 t : Vec Ideal S1x1024 .f32) (ix2 (0 : Fin 1) q)
      = Ideal.ofBits .f32 0x3B800000#32 * Cert.Gram.sqnorm (m ((c : Thread nD τ).loc main_arg1)) C := by
  obtain ⟨-, -, -, -, -, -, e0, e1, -⟩ := block_indices t
  refine Eq.trans ?_ (Cert.KernelIdeal.Norms.row_at m c C)
  show V m c main_v9 (((cfg0.win 3).blk t).view.emb (ix2 (0 : Fin 1) q)) = V m c main_v9 (ix2 (0 : Fin 1) C)
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * q.val = C.val; rw [e1, hC]; omega

/-- Entry (p, q) of the result's block at point t sits at (R, C) in the array. -/
theorem result_block_at (t : Fin cfg0.N) (p q : Fin 1024) (R C : Fin 8192)
    (hR : R.val = win0_4.index t (0 : Fin 2) * 1024 + p.val) (hC : C.val = win0_4.index t (1 : Fin 2) * 1024 + q.val) :
    ((cfg0.win 4).blk t).view.emb (ix2 p q) = (ix2 R C : S8192x8192.Idx) := by
  refine funext fun a => Fin.ext ?_
  match a with
  | ⟨0, _⟩ => show win0_4.index t (0 : Fin 2) * 1024 + 1 * p.val = R.val; rw [hR]; omega
  | ⟨1, _⟩ => show win0_4.index t (1 : Fin 2) * 1024 + 1 * q.val = C.val; rw [hC]; omega

/-! ## What a point writes back -/

/-- WHAT POINT t WRITES BACK is block t of the kernel arrangement of the two arguments. -/
theorem flushed_eq (c : Dev nD) (t : Fin cfg0.N) :
    (dats m 0 c).flushed 4 t = ((cfg0.win 4).blk t).view.read (Elt Ideal)
      (Cert.Gram.kernelForm (m ((c : Thread nD τ).loc main_arg0)) (m ((c : Thread nD τ).loc main_arg1))) := by
  show (cfg0.win 4).cut (grid0.coords t) ((dats m 0 c).after 4 t) = _
  rw [after0_4]
  unfold out0_4
  rw [View.canon_unit_zero zeros]
  simp only [View.ld_unit_zero (S := S1024x256) zeros, View.ld_unit_zero (S := S1024x1) zeros, View.ld_unit_zero (S := S1x1024) zeros]
  obtain ⟨-, -, -, -, -, -, -, -, b0, b1⟩ := block_indices t
  funext j
  obtain ⟨p, q, rfl⟩ : ∃ (p q : Fin 1024), j = ix2 p q := ⟨j 0, j 1, eq_ix2 j⟩
  have hR : win0_4.index t (0 : Fin 2) * 1024 + p.val < 8192 := by have := p.isLt; omega
  have hC : win0_4.index t (1 : Fin 2) * 1024 + q.val < 8192 := by have := q.isLt; omega
  show k0_pay1 (F := Ideal) (iblk m c 0 t) (iblk m c 1 t) (iblk m c 2 t) (iblk m c 3 t) (ix2 p q)
    = Cert.Gram.kernelForm (m ((c : Thread nD τ).loc main_arg0)) (m ((c : Thread nD τ).loc main_arg1)) (((cfg0.win 4).blk t).view.emb (ix2 p q))
  rw [result_block_at t p q ⟨_, hR⟩ ⟨_, hC⟩ rfl rfl]
  refine (Cert.KernelIdeal.Body.stored_at (iblk m c 0 t) (iblk m c 1 t) (iblk m c 2 t) (iblk m c 3 t) p q).trans ?_
  rw [column_block_at m c t p ⟨_, hR⟩ rfl, row_block_at m c t q ⟨_, hC⟩ rfl]
  unfold Cert.Gram.kernelForm Cert.Gram.cross
  refine congrArg (fun z => Ideal.exp (min ((Ideal.ofBits .f32 0x3C000000#32 * z - _) - _) _)) (Finset.sum_congr rfl fun k _ => ?_)
  rw [x_block_at m c t p k ⟨_, hR⟩ rfl, s_block_at m c t q k ⟨_, hC⟩ rfl]

/-! ## The cover and the array after the run -/

/-- An index of the array is in point t's block iff each coordinate is in the block's range on its axis. -/
theorem mem_block (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v10).slice (win0_4.rect t)).set ↔ _
  rw [View.set_slice_whole, Rect.mem_set_unit]
  exact Iff.rfl

/-- Every entry (r, c) of the array is in the block (r / 1024, c / 1024), which some point writes. -/
theorem covered (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE RESULT ARRAY AFTER THE RUN is the kernel arrangement of the Gram matrix of the two arguments. -/
theorem final (c : Dev nD) : (dats m 0 c).arrAt 4 cfg0.N
    = Cert.Gram.kernelForm (m ((c : Thread nD τ).loc main_arg0)) (m ((c : Thread nD τ).loc main_arg1)) :=
  (dats m 0 c).arrAt_eq_of_cover 4 _ (fun t _ => flushed_eq m c t) covered

/-- The kernel's run, read: the result at that function of the arguments, the arguments unchanged. -/
theorem run : θ_run defs (onTc (τ := τ) (main (F := Ideal))) ⟨m, fun _ => 0, ρ⟩ fun r => ∀ c : Dev nD,
      r.2.mem ((c : Thread nD τ).loc main_v10)
        = Cert.Gram.kernelForm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The certificate of the Gaussian (radial-basis) Gram kernel against its jnp reference, on the extended reals.

  Both programs compute, for 8192 rows x_i and 8192 rows s_j of length 256, the matrix exp(-(1/256) · |x_i - s_j|²)
  with the squared distance expanded as |x_i|² + |s_j|² - 2⟨x_i, s_j⟩ and clamped at zero. The reference clamps the
  squared distance from below by 0 and then scales by -(1/256); the kernel folds the scale into the three terms
  ((1/128)⟨x_i, s_j⟩ - (1/256)|x_i|² - (1/256)|s_j|², the two scaled norms computed before the blocked part) and clamps
  from above by 0. All four scales are dyadic rationals their float words denote exactly. On finite inputs the two are
  one function (Proof/Gram.lean): -(1/256) · max q 0 = min (-(1/256) · q) 0, and the scale distributes over the three
  real terms — the one place finiteness of the inputs is used, read off the precondition in Proof/Finite.lean.

  The kernel side: the body's stored value at an entry of a block (Proof/Body.lean: the product into a zero
  accumulator is the sum over the contracted columns, narrowing to bf16 is the identity), the two norm arrays as the
  operations before the blocked part leave them (Proof/Norms.lean), and the 64 blocks assembled into the whole array
  (Proof/Whole.lean). The reference side: its stages read at an index (Proof/RefStage.lean). No operation of the kernel
  was rewritten for the idealized reading, so that conjunct is trivial; the three frames are the generated runs.
-/
import proofs.«137444_j65481071400087_2_alg».proof.Defs
import proofs.«137444_j65481071400087_2_alg».proof.Proof.Gen.Kernel
import proofs.«137444_j65481071400087_2_alg».proof.Proof.Gen.Kernel.Skeleton
import proofs.«137444_j65481071400087_2_alg».proof.Proof.Gen.Kernel.Launch
import proofs.«137444_j65481071400087_2_alg».proof.Proof.Gen.Kernel.Points
import proofs.«137444_j65481071400087_2_alg».proof.Proof.Gen.Kernel.Frame
import proofs.«137444_j65481071400087_2_alg».proof.Proof.Gen.KernelIdeal
import proofs.«137444_j65481071400087_2_alg».proof.Proof.Gen.KernelIdeal.Skeleton
import proofs.«137444_j65481071400087_2_alg».proof.Proof.Gen.KernelIdeal.Launch
import proofs.«137444_j65481071400087_2_alg».proof.Proof.Gen.KernelIdeal.Points
import proofs.«137444_j65481071400087_2_alg».proof.Proof.Gen.KernelIdeal.Frame
import proofs.«137444_j65481071400087_2_alg».proof.Proof.Gen.ReferenceIdeal
import proofs.«137444_j65481071400087_2_alg».proof.Proof.Gen.KernelIdeal.Value
import proofs.«137444_j65481071400087_2_alg».proof.Proof.Gen.ReferenceIdeal.Run
import proofs.«137444_j65481071400087_2_alg».proof.Proof.Gen.ReferenceIdeal.Read
import proofs.«137444_j65481071400087_2_alg».proof.Proof.Gen.Pre_finite_inputs
import proofs.«137444_j65481071400087_2_alg».proof.Proof.Gram
import proofs.«137444_j65481071400087_2_alg».proof.Proof.Finite
import proofs.«137444_j65481071400087_2_alg».proof.Proof.RefStage
import proofs.«137444_j65481071400087_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On finite inputs the kernel's result array (the kernel arrangement, Proof/Whole.lean) and the reference's (the
    reference arrangement, Proof/RefStage.lean) of agreeing arguments are one function (Proof/Gram.lean). -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.stage_eq, (hagree c).1, (hagree c).2]
  obtain ⟨hx, hs⟩ := Cert.Pre_finite_inputs.Finite.entries_real _ _ (hpre c)
  exact Cert.Gram.referenceForm_eq_kernelForm _ _ hx hs

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
